-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S8x2048x4096 : Shape := ⟨3, ![8, 2048, 4096]⟩
abbrev S8x2048x2048 : Shape := ⟨3, ![8, 2048, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S32768x2048 .f32) (main_arg1 : FVec F S8x2048x4096 .f32) (main_arg2 : FVec F S8x2048x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S32768x2048 : Shape := ⟨2, ![32768, 2048]⟩
abbrev S8x2048x4096 : Shape := ⟨3, ![8, 2048, 4096]⟩
abbrev S8x2048x2048 : Shape := ⟨3, ![8, 2048, 2048]⟩
abbrev S256x2048 : Shape := ⟨2, ![256, 2048]⟩
abbrev S1x2048x4096 : Shape := ⟨3, ![1, 2048, 4096]⟩
abbrev S1x2048x2048 : Shape := ⟨3, ![1, 2048, 2048]⟩
abbrev S2048x4096 : Shape := ⟨2, ![2048, 4096]⟩
abbrev S2048x2048 : Shape := ⟨2, ![2048, 2048]⟩
abbrev S256x4096 : Shape := ⟨2, ![256, 4096]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S8x2048x4096, .f32⟩
  | .hbm, ⟨2, _⟩ => ⟨S8x2048x2048, .f32⟩
  | .hbm, ⟨3, _⟩ => ⟨S8x2048x4096, .bf16⟩
  | .hbm, ⟨4, _⟩ => ⟨S8x2048x2048, .bf16⟩
  | .hbm, ⟨5, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S1x2048x4096, .bf16⟩
  | .local _ .vmem, ⟨3, _⟩ => ⟨S1x2048x2048, .bf16⟩
  | .local _ .vmem, ⟨4, _⟩ => ⟨S256x2048, .f32⟩
  | .local _ .vmem, ⟨5, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x2048x4096_S1x2048x4096_0_0_0 : ∀ a, (![0, 0, 0] : Fin 3 → Nat) a + S1x2048x4096.size a ≤ S1x2048x4096.size a
  h_S1x2048x4096 : 0 < S1x2048x4096.numel
  shapeCasts_S1x2048x4096_S2048x4096 : S1x2048x4096.ShapeCasts S2048x4096
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S256x4096_o0_0_S256x2048 : S256x4096.Slices ![0, 0] S256x2048
  slices_S256x4096_o0_2048_S256x2048 : S256x4096.Slices ![0, 2048] S256x2048
  dot_S256x2048_S2048x4096_S256x4096_1_0_0_1_n_n_wf : DotDims.WF S256x2048 S2048x4096 S256x4096 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x4096.size a ≤ S8x2048x4096.size a
  hwx0_1 : ∀ i : grid0.Coords, EltTy.bits .bf16 = 32 ∨ (Rect.block (s := S8x2048x4096) S1x2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S8x2048x2048.size a
  hwx0_2 : ∀ i : grid0.Coords, EltTy.bits .bf16 = 32 ∨ (Rect.block (s := S8x2048x2048) S1x2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S32768x2048.size a
  hwx0_3 : ∀ i : grid0.Coords, EltTy.bits .f32 = 32 ∨ (Rect.block (s := S32768x2048) S256x2048.size (cc0_transform_3 i) (hinb0_3 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S8x2048x4096 : Shape := ⟨3, ![8, 2048, 4096]⟩
abbrev S8x2048x2048 : Shape := ⟨3, ![8, 2048, 2048]⟩
abbrev S8x4096x2048 : Shape := ⟨3, ![8, 4096, 2048]⟩
abbrev S8x4096x4096 : Shape := ⟨3, ![8, 4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x2048x4096, .f32⟩
  | .hbm, ⟨2, _⟩ => ⟨S8x2048x2048, .f32⟩
  | .hbm, ⟨3, _⟩ => ⟨S8x4096x2048, .f32⟩
  | .hbm, ⟨4, _⟩ => ⟨S8x4096x4096, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S_, .f32⟩
  | .hbm, ⟨10, _⟩ => ⟨S8x4096x2048, .f32⟩
  | .hbm, ⟨11, _⟩ => ⟨S8x4096x2048, .f32⟩
  | .hbm, ⟨12, _⟩ => ⟨S_, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S32768x2048_S8x4096x2048 : S32768x2048.ShapeCasts S8x4096x2048
  slices_S8x4096x4096_S8x4096x2048_0_0_0 : S8x4096x4096.Slices ![0, 0, 0] S8x4096x2048
  slices_S8x4096x4096_S8x4096x2048_0_0_2048 : S8x4096x4096.Slices ![0, 0, 2048] S8x4096x2048
  bcast_S_S8x4096x2048 : S_.BroadcastsInDim S8x4096x2048 (![] : Fin 0 → Fin S8x4096x2048.rank)
  shapeCasts_S8x4096x2048_S32768x2048 : S8x4096x2048.ShapeCasts S32768x2048
  dot_S8x4096x2048_S8x2048x4096_S8x4096x4096_2_1_1_2_0_0_wf : DotDims.WF S8x4096x2048 S8x2048x4096 S8x4096x4096 [2] [1] [1] [2] [0] [0]
  dot_S8x4096x2048_S8x2048x2048_S8x4096x2048_2_1_1_2_0_0_wf : DotDims.WF S8x4096x2048 S8x2048x2048 S8x4096x2048 [2] [1] [1] [2] [0] [0]

variable [Facts₀]

def dot_S8x4096x2048_S8x2048x4096_S8x4096x4096_2_1_1_2_0_0 : DotDims S8x4096x2048 S8x2048x4096 S8x4096x4096 where
  lhsContracting := [2]
  rhsContracting := [1]
  lhsNonContracting := [1]
  rhsNonContracting := [2]
  lhsBatch := [0]
  rhsBatch := [0]
  wf := dot_S8x4096x2048_S8x2048x4096_S8x4096x4096_2_1_1_2_0_0_wf
def dot_S8x4096x2048_S8x2048x2048_S8x4096x2048_2_1_1_2_0_0 : DotDims S8x4096x2048 S8x2048x2048 S8x4096x2048 where
  lhsContracting := [2]
  rhsContracting := [1]
  lhsNonContracting := [1]
  rhsNonContracting := [2]
  lhsBatch := [0]
  rhsBatch := [0]
  wf := dot_S8x4096x2048_S8x2048x2048_S8x4096x2048_2_1_1_2_0_0_wf

class Facts : Prop extends Facts₀ where

variable [Facts]
-- ==== Proof.Spec.lean ====
/-
  The specification of the grouped expert layer, as one function of the three argument arrays.

  The 32768 token rows are sorted into 8 contiguous groups of 4096 rows; row `r` belongs to expert `r / 4096`.
  For expert `e` the [2048, 4096] matrix `gu e` holds the gate projection in its columns 0 … 2047 and the up
  projection in its columns 2048 … 4095. With `proj r c = Σ_k x (r, k) · gu (e, k, c)` the activation of row `r`
  in channel `d` is `up · (gate · logistic gate)` with `gate = proj r d`, `up = proj r (2048 + d)`, and the
  result at `(r, h)` is `Σ_d act r d · dn (e, d, h)`.

  Everything is read on the extended reals, where a change of float format is the identity; no step of the
  comparison below moves a factor across a sum, so no finiteness is needed.
-/
import Idealize.ShloMosaic.PureOps.Ideal.Laws
import Idealize.ShloMosaic.Lib.ValueIdx

noncomputable section

open scoped BigOperators

namespace Cert.Experts

open Idealize.ShloMosaic Idealize.ShloMosaic.ValueIdx

/-- The token rows: [32768, 2048]. -/
abbrev SX : Shape := ⟨2, ![32768, 2048]⟩
/-- The gate-and-up matrices, one per expert: [8, 2048, 4096]. -/
abbrev SGU : Shape := ⟨3, ![8, 2048, 4096]⟩
/-- The down matrices, one per expert: [8, 2048, 2048]. -/
abbrev SDN : Shape := ⟨3, ![8, 2048, 2048]⟩

/-- The expert a token row belongs to: rows are grouped 4096 to an expert. -/
def expertOf (r : Fin 32768) : Fin 8 := ⟨r.val / 4096, by have := r.isLt; omega⟩

/-- The position of a token row inside its expert's group. -/
def tokOf (r : Fin 32768) : Fin 4096 := ⟨r.val % 4096, by omega⟩

/-- Row `tok` of expert `e`'s group, as a row of the whole token array. -/
def rowOf (e : Fin 8) (tok : Fin 4096) : Fin 32768 := ⟨e.val * 4096 + tok.val, by have := e.isLt; have := tok.isLt; omega⟩

theorem rowOf_expertOf_tokOf (r : Fin 32768) : rowOf (expertOf r) (tokOf r) = r :=
  Fin.ext (by show r.val / 4096 * 4096 + r.val % 4096 = r.val; omega)

/-- A gate column `d` as a column of the concatenated gate-and-up matrix. -/
def gateCol (d : Fin 2048) : Fin 4096 := ⟨d.val, by have := d.isLt; omega⟩
/-- An up column `d` as a column of the concatenated gate-and-up matrix. -/
def upCol (d : Fin 2048) : Fin 4096 := ⟨2048 + d.val, by have := d.isLt; omega⟩

/-- Row `r` of the tokens against column `c` of expert `e`'s gate-and-up matrix. -/
def proj (x : SX.Idx → EReal) (gu : SGU.Idx → EReal) (e : Fin 8) (r : Fin 32768) (c : Fin 4096) : EReal :=
  ∑ k : Fin 2048, x (ix2 r k) * gu (ix3 e k c)

/-- The gated activation of row `r` in channel `d`: `up · (gate · logistic gate)`. -/
def act (x : SX.Idx → EReal) (gu : SGU.Idx → EReal) (e : Fin 8) (r : Fin 32768) (d : Fin 2048) : EReal :=
  proj x gu e r (upCol d) * (proj x gu e r (gateCol d) * Ideal.logistic (proj x gu e r (gateCol d)))

/-- Row `r`'s activations against column `h` of expert `e`'s down matrix. -/
def down (x : SX.Idx → EReal) (gu : SGU.Idx → EReal) (dn : SDN.Idx → EReal) (e : Fin 8) (r : Fin 32768) (h : Fin 2048) : EReal :=
  ∑ d : Fin 2048, act x gu e r d * dn (ix3 e d h)

/-- The layer's result: each row through its own expert. -/
def G (x : SX.Idx → EReal) (gu : SGU.Idx → EReal) (dn : SDN.Idx → EReal) : SX.Idx → EReal :=
  fun i => down x gu dn (expertOf (i 0)) (i 0) (i 1)

/-- The result at row `r`, column `h`. -/
theorem G_ix2 (x : SX.Idx → EReal) (gu : SGU.Idx → EReal) (dn : SDN.Idx → EReal) (r : Fin 32768) (h : Fin 2048) :
    G x gu dn (ix2 r h) = down x gu dn (expertOf r) r h := rfl

/-- The float word of `1.0` is the extended real `1`. -/
theorem ofBits_one_f32 : Ideal.ofBits .f32 0x3F800000#32 = 1 := by
  simp [Ideal.ofBits, Ideal.ieee, -EReal.coe_mul]; norm_num

/-- The logistic function spelt by its expansion `1 / (1 + exp (-g))` with the literal word of `1.0`. -/
theorem logistic_expansion (g : EReal) :
    Ideal.div (Ideal.ofBits .f32 0x3F800000#32) (Ideal.ofBits .f32 0x3F800000#32 + Ideal.exp (-g)) = Ideal.logistic g := by
  rw [ofBits_one_f32]; rfl

end Cert.Experts

end
-- ==== Proof.RefValue.lean ====
/-
  The reference computes the specification.

  The reference reshapes the token rows to [8, 4096, 2048] (expert, position, feature), contracts the feature
  axis against each expert's gate-and-up matrix, slices the gate and the up halves of the last axis, forms
  `up · (gate · (1 / (1 + exp (-gate))))`, contracts against each expert's down matrix and reshapes back to
  [32768, 2048]. Read at `(e, tok, ·)` every stage is a stage of the specification for row `e · 4096 + tok`; the
  final reshape sends row `r` to `(r / 4096, r % 4096)`.
-/
import proofs.«175118_j6863357739469_2_alg».proof.Proof.Gen.ReferenceIdeal.Read
import proofs.«175118_j6863357739469_2_alg».proof.Proof.Spec

noncomputable section

open scoped BigOperators

namespace Cert.Experts.Ref

open Cert.ReferenceIdeal Cert.ReferenceIdeal.Read Idealize.ShloMosaic Idealize.ShloMosaic.ValueIdx Cert.Experts

variable (x0 : (⟨S32768x2048, .f32⟩ : BufTy).Contents (Elt Ideal)) (x1 : (⟨S8x2048x4096, .f32⟩ : BufTy).Contents (Elt Ideal))
  (x2 : (⟨S8x2048x2048, .f32⟩ : BufTy).Contents (Elt Ideal))

/-- The reshaped tokens at `(e, tok, k)` are the tokens at row `e · 4096 + tok`, feature `k`. -/
theorem tokens_at (e : Fin 8) (tok : Fin 4096) (k : Fin 2048) :
    val_main_v0 (F := Ideal) x0 (ix3 e tok k) = x0 (ix2 (rowOf e tok) k) := by
  rw [val_main_v0_apply]
  refine congrArg x0 (funext fun a => Fin.ext ?_)
  have he := e.isLt; have ht := tok.isLt; have hk := k.isLt
  match a with
  | ⟨0, _⟩ => show ((e.val * 4096 + tok.val) * 2048 + k.val) / 2048 = e.val * 4096 + tok.val; omega
  | ⟨1, _⟩ => show ((e.val * 4096 + tok.val) * 2048 + k.val) % 2048 = k.val; omega

/-- The first contraction at `(e, tok, c)` is the projection of row `e · 4096 + tok` on column `c` of expert `e`. -/
theorem proj_at (e : Fin 8) (tok : Fin 4096) (c : Fin 4096) :
    val_main_v1 (F := Ideal) x0 x1 (ix3 e tok c) = proj x0 x1 e (rowOf e tok) c := by
  rw [val_main_v1_apply]
  unfold proj
  refine Finset.sum_congr rfl fun k _ => ?_
  have hl : lidx_main_v1 (ix3 e tok c) k = ix3 e tok k :=
    funext fun a => Fin.ext (by match a with | ⟨0, _⟩ => rfl | ⟨1, _⟩ => rfl | ⟨2, _⟩ => rfl)
  have hr : ridx_main_v1 (ix3 e tok c) k = ix3 e k c :=
    funext fun a => Fin.ext (by match a with | ⟨0, _⟩ => rfl | ⟨1, _⟩ => rfl | ⟨2, _⟩ => rfl)
  rw [hl, hr, tokens_at]

/-- The first slice is the gate half. -/
theorem gate_at (e : Fin 8) (tok : Fin 4096) (d : Fin 2048) :
    val_main_v2 (F := Ideal) x0 x1 (ix3 e tok d) = proj x0 x1 e (rowOf e tok) (gateCol d) := by
  rw [val_main_v2_apply]
  have hi : idx_main_v2 (ix3 e tok d) = ix3 e tok (gateCol d) :=
    funext fun a => Fin.ext (by match a with | ⟨0, _⟩ => rfl | ⟨1, _⟩ => rfl | ⟨2, _⟩ => rfl)
  rw [hi, proj_at]

/-- The second slice is the up half. -/
theorem up_at (e : Fin 8) (tok : Fin 4096) (d : Fin 2048) :
    val_main_v3 (F := Ideal) x0 x1 (ix3 e tok d) = proj x0 x1 e (rowOf e tok) (upCol d) := by
  rw [val_main_v3_apply]
  have hi : idx_main_v3 (ix3 e tok d) = ix3 e tok (upCol d) :=
    funext fun a => Fin.ext (by match a with | ⟨0, _⟩ => rfl | ⟨1, _⟩ => rfl | ⟨2, _⟩ => rfl)
  rw [hi, proj_at]

/-- The expansion `1 / (1 + exp (-gate))` is the logistic function of the gate. -/
theorem logistic_at (e : Fin 8) (tok : Fin 4096) (d : Fin 2048) :
    val_main_call0_v5 (F := Ideal) x0 x1 (ix3 e tok d) = Ideal.logistic (proj x0 x1 e (rowOf e tok) (gateCol d)) := by
  rw [val_main_call0_v5_apply, val_main_call0_v4_apply, val_main_call0_cst_0_apply, val_main_call0_v3_apply,
    val_main_call0_v2_apply, val_main_call0_cst_apply, val_main_call0_v1_apply, val_main_call0_v0_apply, gate_at]
  exact logistic_expansion _

/-- The product `up · (gate · logistic gate)` is the activation. -/
theorem act_at (e : Fin 8) (tok : Fin 4096) (d : Fin 2048) :
    val_main_v5 (F := Ideal) x0 x1 (ix3 e tok d) = act x0 x1 e (rowOf e tok) d := by
  rw [val_main_v5_apply, val_main_v4_apply, up_at, gate_at, logistic_at]
  rfl

/-- The second contraction at `(e, tok, h)` is the activations of row `e · 4096 + tok` against column `h` of
    expert `e`'s down matrix. -/
theorem down_at (e : Fin 8) (tok : Fin 4096) (h : Fin 2048) :
    val_main_v6 (F := Ideal) x0 x1 x2 (ix3 e tok h) = down x0 x1 x2 e (rowOf e tok) h := by
  rw [val_main_v6_apply]
  unfold down
  refine Finset.sum_congr rfl fun d _ => ?_
  have hl : lidx_main_v6 (ix3 e tok h) d = ix3 e tok d :=
    funext fun a => Fin.ext (by match a with | ⟨0, _⟩ => rfl | ⟨1, _⟩ => rfl | ⟨2, _⟩ => rfl)
  have hr : ridx_main_v6 (ix3 e tok h) d = ix3 e d h :=
    funext fun a => Fin.ext (by match a with | ⟨0, _⟩ => rfl | ⟨1, _⟩ => rfl | ⟨2, _⟩ => rfl)
  rw [hl, hr, act_at]

/-- The reference's result is the specification of its arguments. -/
theorem result_eq : val_main_v7 (F := Ideal) x0 x1 x2 = G x0 x1 x2 := by
  funext i
  obtain ⟨r, h, rfl⟩ : ∃ (r : Fin 32768) (h : Fin 2048), i = ix2 r h := ⟨i 0, i 1, eq_ix2 i⟩
  rw [val_main_v7_apply]
  have hi : idx_main_v7 (ix2 r h) = ix3 (expertOf r) (tokOf r) h := by
    refine funext fun a => Fin.ext ?_
    have h0 : r.val < 32768 := r.isLt
    have h1 : h.val < 2048 := h.isLt
    match a with
    | ⟨0, _⟩ => show (r.val * 2048 + h.val) / 8388608 = r.val / 4096; omega
    | ⟨1, _⟩ => show (r.val * 2048 + h.val) / 2048 % 4096 = r.val % 4096; omega
    | ⟨2, _⟩ => show (r.val * 2048 + h.val) % 2048 = h.val; omega
  rw [hi, down_at, rowOf_expertOf_tokOf, G_ix2]

end Cert.Experts.Ref

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.Body.lean ====
/-
  The kernel body's arithmetic at an index.

  At one grid point the body holds a [256, 2048] block of token rows, one expert's [1, 2048, 4096] gate-and-up
  matrix and its [1, 2048, 2048] down matrix. It multiplies the rows by the gate-and-up matrix, takes the gate
  half (columns 0 … 2047) and the up half (columns 2048 … 4095) of the product, forms `up · (gate · logistic gate)`
  and multiplies by the down matrix. On the extended reals the narrowing casts are the identity and each product
  into a zero accumulator is the plain sum over the contracted axis, so row `p`, column `q` of what the body stores
  is the specification's `down` for whichever token row and expert the block's entries come from.
-/
import proofs.«175118_j6863357739469_2_alg».proof.Proof.Gen.KernelIdeal.Skeleton
import proofs.«175118_j6863357739469_2_alg».proof.Proof.Spec
import proofs.«175118_j6863357739469_2_alg».proof.Proof.LibDot
import Idealize.ShloMosaic.Lib.Pipeline.Value

noncomputable section

open scoped BigOperators

namespace Cert.Experts.Body

open Cert.KernelIdeal Cert.KernelIdeal.Gen Idealize.ShloMosaic Idealize.ShloMosaic.ValueIdx Cert.Experts

/-- The first product: the token block (narrowed) by the expert's gate-and-up matrix (its unit axis dropped). -/
def gateUp (v0 : FVec Ideal S256x2048 .f32) (v2 : FVec Ideal S1x2048x4096 .bf16) : FVec Ideal S256x4096 .f32 :=
  matmul dot_S256x2048_S2048x4096_S256x4096_1_0_0_1_n_n none (truncf .bf16 v0 bitsLt_bf16_f32)
    (shapeCast S2048x4096 v2 shapeCasts_S1x2048x4096_S2048x4096) (constant (F := Ideal) S256x4096 .f32 0x00000000#32)

/-- The gated activation of a [256, 4096] gate-and-up product, narrowed. -/
def swiglu (g : FVec Ideal S256x4096 .f32) : FVec Ideal S256x2048 .bf16 :=
  truncf .bf16
    (mulf (extractStridedSlice S256x2048 ![0, 2048] g slices_S256x4096_o0_2048_S256x2048)
      (mulf (extractStridedSlice S256x2048 ![0, 0] g slices_S256x4096_o0_0_S256x2048)
        (logistic (extractStridedSlice S256x2048 ![0, 0] g slices_S256x4096_o0_0_S256x2048))))
    bitsLt_bf16_f32

/-- The body's stored value is the second product of the gated activation of the first. -/
theorem payload_eq (v0 : Vec Ideal S256x2048 .f32) (v2 : Vec Ideal S1x2048x4096 .bf16) (v4 : Vec Ideal S1x2048x2048 .bf16) :
    k0_pay1 (F := Ideal) v0 v2 v4 = matmul dot_S256x2048_S2048x2048_S256x2048_1_0_0_1_n_n none (swiglu (gateUp v0 v2))
      (shapeCast S2048x2048 v4 shapeCasts_S1x2048x2048_S2048x2048 : FVec Ideal S2048x2048 .bf16) (constant (F := Ideal) S256x2048 .f32 0x00000000#32) := rfl

/-- The gate-and-up matrix with its unit axis dropped, at `(k, c)`. -/
theorem gu_cast_at (v2 : FVec Ideal S1x2048x4096 .bf16) (k : Fin 2048) (c : Fin 4096) :
    shapeCast S2048x4096 v2 shapeCasts_S1x2048x4096_S2048x4096 (ix2 k c) = v2 (ix3 0 k c) :=
  shapeCast_apply v2 shapeCasts_S1x2048x4096_S2048x4096 (ix2 k c) (ix3 0 k c) (by
    rewrite [Shape.rowMajor_val_three, Shape.rowMajor_val_two]
    show (0 * 2048 + k.val) * 4096 + c.val = k.val * 4096 + c.val
    omega)

/-- The down matrix with its unit axis dropped, at `(d, q)`. -/
theorem dn_cast_at (v4 : FVec Ideal S1x2048x2048 .bf16) (d : Fin 2048) (q : Fin 2048) :
    shapeCast S2048x2048 v4 shapeCasts_S1x2048x2048_S2048x2048 (ix2 d q) = v4 (ix3 0 d q) :=
  shapeCast_apply v4 shapeCasts_S1x2048x2048_S2048x2048 (ix2 d q) (ix3 0 d q) (by
    rewrite [Shape.rowMajor_val_three, Shape.rowMajor_val_two]
    show (0 * 2048 + d.val) * 2048 + q.val = d.val * 2048 + q.val
    omega)

/-- The first product at `(p, c)`: row `p` of the block against column `c` of the matrix. -/
theorem gateUp_at (v0 : FVec Ideal S256x2048 .f32) (v2 : FVec Ideal S1x2048x4096 .bf16) (p : Fin 256) (c : Fin 4096) :
    gateUp v0 v2 (ix2 p c) = ∑ k : Fin 2048, v0 (ix2 p k) * v2 (ix3 0 k c) := by
  unfold gateUp
  refine (Ideal.matmul_constant_zero_apply _ none _ _ (ix2 p c)).trans ?_
  refine (PlainDot.sum_eq dot_S256x2048_S2048x4096_S256x4096_1_0_0_1_n_n rfl rfl rfl rfl rfl rfl _ _ p c).trans ?_
  refine Finset.sum_congr rfl fun k _ => ?_
  rw [gu_cast_at]
  rfl

/-- The gate half of a gate-and-up product at `(p, d)`. -/
theorem gate_half_at (g : FVec Ideal S256x4096 .f32) (p : Fin 256) (d : Fin 2048) :
    extractStridedSlice S256x2048 ![0, 0] g slices_S256x4096_o0_0_S256x2048 (ix2 p d) = g (ix2 p (gateCol d)) :=
  extractStridedSlice_apply ![0, 0] g slices_S256x4096_o0_0_S256x2048 (ix2 p d) (ix2 p (gateCol d)) (fun a => match a with
    | ⟨0, _⟩ => by show p.val = 0 + p.val; omega
    | ⟨1, _⟩ => by show d.val = 0 + d.val; omega)

/-- The up half of a gate-and-up product at `(p, d)`. -/
theorem up_half_at (g : FVec Ideal S256x4096 .f32) (p : Fin 256) (d : Fin 2048) :
    extractStridedSlice S256x2048 ![0, 2048] g slices_S256x4096_o0_2048_S256x2048 (ix2 p d) = g (ix2 p (upCol d)) :=
  extractStridedSlice_apply ![0, 2048] g slices_S256x4096_o0_2048_S256x2048 (ix2 p d) (ix2 p (upCol d)) (fun a => match a with
    | ⟨0, _⟩ => by show p.val = 0 + p.val; omega
    | ⟨1, _⟩ => by show 2048 + d.val = 2048 + d.val; omega)

/-- The gated activation at `(p, d)`: `up · (gate · logistic gate)`. -/
theorem swiglu_at (g : FVec Ideal S256x4096 .f32) (p : Fin 256) (d : Fin 2048) :
    swiglu g (ix2 p d) = g (ix2 p (upCol d)) * (g (ix2 p (gateCol d)) * Ideal.logistic (g (ix2 p (gateCol d)))) := by
  show extractStridedSlice S256x2048 ![0, 2048] g slices_S256x4096_o0_2048_S256x2048 (ix2 p d)
      * (extractStridedSlice S256x2048 ![0, 0] g slices_S256x4096_o0_0_S256x2048 (ix2 p d)
        * Ideal.logistic (extractStridedSlice S256x2048 ![0, 0] g slices_S256x4096_o0_0_S256x2048 (ix2 p d))) = _
  rw [up_half_at, gate_half_at]

/-- WHAT THE BODY STORES at `(p, q)`: when row `p` of the token block is row `r` of the token array and the two
    weight blocks are expert `e`'s matrices, the specification's `down` for `r`, `e` and column `q`. -/
theorem payload_at (v0 : Vec Ideal S256x2048 .f32) (v2 : Vec Ideal S1x2048x4096 .bf16) (v4 : Vec Ideal S1x2048x2048 .bf16)
    (x : SX.Idx → EReal) (gu : SGU.Idx → EReal) (dn : SDN.Idx → EReal) (e : Fin 8) (r : Fin 32768) (p : Fin 256) (q : Fin 2048)
    (h0 : ∀ k : Fin 2048, v0 (ix2 p k) = x (ix2 r k))
    (h2 : ∀ (k : Fin 2048) (c : Fin 4096), v2 (ix3 0 k c) = gu (ix3 e k c))
    (h4 : ∀ d : Fin 2048, v4 (ix3 0 d q) = dn (ix3 e d q)) :
    k0_pay1 (F := Ideal) v0 v2 v4 (ix2 p q) = down x gu dn e r q := by
  rw [payload_eq]
  refine (Ideal.matmul_constant_zero_apply _ none _ _ (ix2 p q)).trans ?_
  refine (PlainDot.sum_eq dot_S256x2048_S2048x2048_S256x2048_1_0_0_1_n_n rfl rfl rfl rfl rfl rfl _ _ p q).trans ?_
  unfold down
  refine Finset.sum_congr rfl fun d _ => ?_
  have hproj : ∀ c : Fin 4096, gateUp v0 v2 (ix2 p c) = proj x gu e r c := fun c => by
    rw [gateUp_at]
    unfold proj
    exact Finset.sum_congr rfl fun k _ => by rw [h0 k, h2 k c]
  rw [swiglu_at, hproj, hproj, dn_cast_at, h4 d]
  rfl

end Cert.Experts.Body

end
-- ==== Proof.Blocks.lean ====
/-
  From blocks to the array.

  The grid has 8 × 16 = 128 points; point `t` is expert `t / 16`, token tile `t % 16`. At point `t` the body sees
  rows `256 t … 256 t + 255` of the token array, expert `t / 16`'s two weight matrices (the narrowed copies the host
  makes before the launch, which on the extended reals are the arguments themselves), and writes rows
  `256 t … 256 t + 255` of the result. Row `256 t + p` belongs to expert `(256 t + p) / 4096 = t / 16`, so what point
  `t` writes back is block `t` of the specification; the 128 blocks tile the 32768 rows, so the result array ends
  holding the specification.
-/
import proofs.«175118_j6863357739469_2_alg».proof.Proof.Gen.KernelIdeal.Value
import proofs.«175118_j6863357739469_2_alg».proof.Proof.Body
import Idealize.ShloMosaic.Lib.StableHlo.Run

set_option maxRecDepth 16384

noncomputable section

open scoped BigOperators

namespace Cert.Experts.Blocks

open Cert.KernelIdeal Cert.KernelIdeal.Gen Idealize.ShloMosaic Idealize.ShloMosaic.TcCoe Idealize.SL.Sem
open Idealize.ShloMosaic.ValueIdx Idealize.ShloMosaic.StableHlo Cert.Experts
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The printed index maps over the 128 points: the token and result windows are at block row `t`, the two weight
    windows at expert `t / 16`; every other block coordinate is 0. -/
theorem index_facts : ∀ t : Fin cfg0.N,
    win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The narrowed gate-and-up matrices the region finds are, on the extended reals, the argument. -/
theorem gu_entry (c : Dev nD) :
    (V m c main_v0 : S8x2048x4096.Idx → EReal) = (m ((c : Thread nD τ).loc main_arg1) : S8x2048x4096.Idx → EReal) := by
  dsimp only [V, hostOps0]
  after_results
  rfl

/-- The narrowed down matrices the region finds are, on the extended reals, the argument. -/
theorem dn_entry (c : Dev nD) :
    (V m c main_v1 : S8x2048x2048.Idx → EReal) = (m ((c : Thread nD τ).loc main_arg2) : S8x2048x2048.Idx → EReal) := by
  dsimp only [V, hostOps0]
  after_results
  rfl

/-- Row `p` of the token block at point `t` is row `256 t + p` of the token array. -/
theorem tokens_block_at (c : Dev nD) (t : Fin cfg0.N) (p : Fin 256) (k : Fin 2048) (r : Fin 32768)
    (hr : r.val = t.val * 256 + p.val) :
    (iblk m c 0 t : Vec Ideal S256x2048 .f32) (ix2 p k)
      = (m ((c : Thread nD τ).loc main_arg0) : S32768x2048.Idx → EReal) (ix2 r k) := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- The gate-and-up block at point `t` is expert `t / 16`'s matrix. -/
theorem gu_block_at (c : Dev nD) (t : Fin cfg0.N) (k : Fin 2048) (cc : Fin 4096) (e : Fin 8) (he : e.val = t.val / 16) :
    (iblk m c 1 t : Vec Ideal S1x2048x4096 .bf16) (ix3 0 k cc)
      = (m ((c : Thread nD τ).loc main_arg1) : S8x2048x4096.Idx → EReal) (ix3 e k cc) := by
  obtain ⟨-, -, e2, e3, e4, -⟩ := index_facts t
  unfold iblk
  rw [View.read_apply]
  show (V m c main_v0 : S8x2048x4096.Idx → EReal) _ = _
  rw [gu_entry]
  refine congrArg _ (funext fun a => Fin.ext ?_)
  match a with
  | ⟨0, _⟩ => show win0_1.index t (0 : Fin 3) * 1 + 1 * 0 = e.val; omega
  | ⟨1, _⟩ => show win0_1.index t (1 : Fin 3) * 2048 + 1 * k.val = k.val; omega
  | ⟨2, _⟩ => show win0_1.index t (2 : Fin 3) * 4096 + 1 * cc.val = cc.val; omega

/-- The down block at point `t` is expert `t / 16`'s matrix. -/
theorem dn_block_at (c : Dev nD) (t : Fin cfg0.N) (d : Fin 2048) (q : Fin 2048) (e : Fin 8) (he : e.val = t.val / 16) :
    (iblk m c 2 t : Vec Ideal S1x2048x2048 .bf16) (ix3 0 d q)
      = (m ((c : Thread nD τ).loc main_arg2) : S8x2048x2048.Idx → EReal) (ix3 e d q) := by
  obtain ⟨-, -, -, -, -, e5, e6, e7, -⟩ := index_facts t
  unfold iblk
  rw [View.read_apply]
  show (V m c main_v1 : S8x2048x2048.Idx → EReal) _ = _
  rw [dn_entry]
  refine congrArg _ (funext fun a => Fin.ext ?_)
  match a with
  | ⟨0, _⟩ => show win0_2.index t (0 : Fin 3) * 1 + 1 * 0 = e.val; omega
  | ⟨1, _⟩ => show win0_2.index t (1 : Fin 3) * 2048 + 1 * d.val = d.val; omega
  | ⟨2, _⟩ => show win0_2.index t (2 : Fin 3) * 2048 + 1 * q.val = q.val; omega

/-- WHAT POINT `t` WRITES BACK is block `t` of the specification of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  unfold out0_3
  rw [View.canon_unit_zero origin2]
  simp only [View.ld_unit_zero (S := S256x2048) origin2, View.ld_unit_zero (S := S1x2048x4096) origin3,
    View.ld_unit_zero (S := S1x2048x2048) origin3]
  funext y
  obtain ⟨p, q, rfl⟩ : ∃ (p : Fin 256) (q : Fin 2048), y = ix2 p q := ⟨y 0, y 1, eq_ix2 y⟩
  have hN : cfg0.N = 128 := N_0
  have ht : t.val < cfg0.N := t.isLt
  have hp : p.val < 256 := p.isLt
  obtain ⟨-, -, -, -, -, -, -, -, e8, e9⟩ := index_facts t
  have hrow : t.val * 256 + p.val < 32768 := by omega
  have hexp : t.val / 16 < 8 := by omega
  have hemb : ((cfg0.win 3).blk t).view.emb (ix2 p q) = ix2 (⟨t.val * 256 + p.val, hrow⟩ : Fin 32768) q :=
    funext fun a => Fin.ext (by
      match a with
      | ⟨0, _⟩ => show win0_3.index t (0 : Fin 2) * 256 + 1 * p.val = t.val * 256 + p.val; omega
      | ⟨1, _⟩ => show win0_3.index t (1 : Fin 2) * 2048 + 1 * q.val = q.val; omega)
  show k0_pay1 (iblk m c 0 t) (iblk m c 1 t) (iblk m c 2 t) (ix2 p q)
    = G (m ((c : Thread nD τ).loc main_arg0)) (m ((c : Thread nD τ).loc main_arg1)) (m ((c : Thread nD τ).loc main_arg2))
        (((cfg0.win 3).blk t).view.emb (ix2 p q))
  rw [hemb, G_ix2]
  have hof : expertOf (⟨t.val * 256 + p.val, hrow⟩ : Fin 32768) = (⟨t.val / 16, hexp⟩ : Fin 8) :=
    Fin.ext (by show (t.val * 256 + p.val) / 4096 = t.val / 16; omega)
  rw [hof]
  exact Body.payload_at (iblk m c 0 t) (iblk m c 1 t) (iblk m c 2 t)
    (m ((c : Thread nD τ).loc main_arg0)) (m ((c : Thread nD τ).loc main_arg1)) (m ((c : Thread nD τ).loc main_arg2))
    ⟨t.val / 16, hexp⟩ ⟨t.val * 256 + p.val, hrow⟩ p q
    (fun k => tokens_block_at m c t p k ⟨t.val * 256 + p.val, hrow⟩ rfl)
    (fun k cc => gu_block_at m c t k cc ⟨t.val / 16, hexp⟩ rfl)
    (fun d => dn_block_at m c t d q ⟨t.val / 16, hexp⟩ rfl)

/-- An index of the result array is in point `t`'s block iff each coordinate is in the block's range on its axis. -/
theorem mem_blk (t : Fin cfg0.N) (i : S32768x2048.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v2).slice (win0_3.rect t)).set ↔ _
  rw [View.set_slice_whole, Rect.mem_set_unit]
  exact Iff.rfl

/-- The 128 blocks tile the result array: row `r` is in the block of point `r / 256`. -/
theorem cover (i : S32768x2048.Idx) :
    ∃ t : Fin cfg0.N, (cfg0.win 3).flush t = true ∧ i ∈ ((cfg0.win 3).blk t).view.set := by
  have hN : cfg0.N = 128 := N_0
  have h0 : (i 0).val < 32768 := (i 0).isLt
  have h1 : (i 1).val < 2048 := (i 1).isLt
  have hlt : (i 0).val / 256 < cfg0.N := by omega
  obtain ⟨-, -, -, -, -, -, -, -, e8, e9⟩ := index_facts ⟨(i 0).val / 256, hlt⟩
  have e8' : win0_3.index (⟨(i 0).val / 256, hlt⟩ : Fin cfg0.N) (0 : Fin 2) = (i 0).val / 256 := e8
  refine ⟨⟨(i 0).val / 256, hlt⟩, flush0_3 _, ?_⟩
  rw [mem_blk]
  intro a
  match a with
  | ⟨0, _⟩ =>
    show win0_3.index (⟨(i 0).val / 256, hlt⟩ : Fin cfg0.N) (0 : Fin 2) * 256 ≤ (i 0).val
      ∧ (i 0).val < win0_3.index (⟨(i 0).val / 256, hlt⟩ : Fin cfg0.N) (0 : Fin 2) * 256 + 256
    omega
  | ⟨1, _⟩ =>
    show win0_3.index (⟨(i 0).val / 256, hlt⟩ : Fin cfg0.N) (1 : Fin 2) * 2048 ≤ (i 1).val
      ∧ (i 1).val < win0_3.index (⟨(i 0).val / 256, hlt⟩ : Fin cfg0.N) (1 : Fin 2) * 2048 + 2048
    omega

/-- THE RESULT ARRAY after the run is the specification of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Experts.Blocks

end
-- ==== Proof.lean ====
/-
  Grouped expert layer: per-expert product, gated activation, per-expert product.

  32768 token rows of 2048 features are sorted into 8 groups of 4096, one group per expert. Each row is multiplied
  by its expert's [2048, 4096] gate-and-up matrix; with `gate` the first 2048 columns of the product and `up` the
  last 2048, the activation is `up · (gate · logistic gate)`; the activation is multiplied by the expert's
  [2048, 2048] down matrix. The kernel does this tile by tile on a grid of 8 experts × 16 tiles of 256 rows, on
  narrowed copies of the operands; the reference does it with two batched contractions over a [8, 4096, ·] reshape
  and spells the logistic function as `1 / (1 + exp (-gate))`.

  On the extended reals narrowing is the identity, a product into a zero accumulator is the sum over the
  contracted axis, and `logistic g` is by definition `1 / (1 + exp (-g))`, so both programs compute the one
  function `Cert.Experts.G` (Proof/Spec.lean) of the three argument arrays, with the same sums in the same
  grouping: Proof/RefValue.lean reads the reference's operations at an index, Proof/Body.lean the kernel body's,
  Proof/Blocks.lean carries the body's blocks to the whole result array. No law used needs finite entries.
-/
import proofs.«175118_j6863357739469_2_alg».proof.Defs
import proofs.«175118_j6863357739469_2_alg».proof.Proof.Gen.Kernel
import proofs.«175118_j6863357739469_2_alg».proof.Proof.Gen.Kernel.Frame
import proofs.«175118_j6863357739469_2_alg».proof.Proof.Gen.KernelIdeal
import proofs.«175118_j6863357739469_2_alg».proof.Proof.Gen.KernelIdeal.Frame
import proofs.«175118_j6863357739469_2_alg».proof.Proof.Gen.KernelIdeal.Value
import proofs.«175118_j6863357739469_2_alg».proof.Proof.Gen.ReferenceIdeal
import proofs.«175118_j6863357739469_2_alg».proof.Proof.Gen.ReferenceIdeal.Run
import proofs.«175118_j6863357739469_2_alg».proof.Proof.Gen.ReferenceIdeal.Read
import proofs.«175118_j6863357739469_2_alg».proof.Proof.Gen.Pre_finite_inputs
import proofs.«175118_j6863357739469_2_alg».proof.Proof.RefValue
import proofs.«175118_j6863357739469_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- The kernel on the extended reals runs and leaves its arguments as they were. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- Both programs end with the result array at the specification of the argument arrays, which agree. -/
theorem algebraic : Cert.algebraic_KernelIdeal_ReferenceIdeal := by
  intro m ρ m' ρ' _ hagree
  refine ⟨_, Cert.Experts.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.Experts.Ref.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
